-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x1024 .f32) (main_arg1 : FVec F S4096x1024 .f32) (main_arg2 : FVec F S4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x1024 : Shape := ⟨2, ![16384, 1024]⟩
abbrev S4096x1024 : Shape := ⟨2, ![4096, 1024]⟩
abbrev S4096 : Shape := ⟨1, ![4096]⟩
abbrev S16384 : Shape := ⟨1, ![16384]⟩
abbrev S512x1024 : Shape := ⟨2, ![512, 1024]⟩
abbrev S512 : Shape := ⟨1, ![512]⟩
abbrev S512x4096 : Shape := ⟨2, ![512, 4096]⟩
abbrev S1x4096 : Shape := ⟨2, ![1, 4096]⟩
abbrev S512x1024x4 : Shape := ⟨3, ![512, 1024, 4]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096, .f32⟩
  | .hbm, ⟨3, _⟩ => ⟨S16384, .f32⟩
  | .local _ .vmem, ⟨0, _⟩ => ⟨S512x1024, .f32⟩
  | .local _ .vmem, ⟨1, _⟩ => ⟨S512x1024, .f32⟩
  | .local _ .vmem, ⟨2, _⟩ => ⟨S4096x1024, .f32⟩
  | .local _ .vmem, ⟨3, _⟩ => ⟨S4096, .f32⟩
  | .local _ .vmem, ⟨4, _⟩ => ⟨S512, .f32⟩
  | .local _ .vmem, ⟨5, _⟩ => ⟨S512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S4096x1024_S4096x1024_0_0 : ∀ a, (![0, 0] : Fin 2 → Nat) a + S4096x1024.size a ≤ S4096x1024.size a
  h_S4096x1024 : 0 < S4096x1024.numel
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  shapeCasts_S512x4096_S512x1024x4 : S512x4096.ShapeCasts S512x1024x4
  reduces_S512x1024x4_S512x1024 : S512x1024x4.Reduces [2] S512x1024
  reduces_S512x1024_S512 : S512x1024.Reduces [1] S512
  inb_S512_S512_0 : ∀ a, (![0] : Fin 1 → Nat) a + S512.size a ≤ S512.size a
  h_S512 : 0 < S512.numel
  dot_S512x1024_S4096x1024_S512x4096_1_1_0_0_n_n_wf : DotDims.WF S512x1024 S4096x1024 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .f32 = 32 ∨ (Rect.block (s := S4096x1024) S4096x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S16384.size a
  hwx0_3 : ∀ i : grid0.Coords, EltTy.bits .f32 = 32 ∨ (Rect.block (s := S16384) S512.size (cc0_transform_3 i) (hinb0_3 i)).WholeWords (EltTy.packing .f32)

variable [Facts₀]

def dot_S512x1024_S4096x1024_S512x4096_1_1_0_0_n_n : DotDims S512x1024 S4096x1024 S512x4096 where
  lhsContracting := [1]
  rhsContracting := [1]
  lhsNonContracting := [0]
  rhsNonContracting := [0]
  lhsBatch := []
  rhsBatch := []
  wf := dot_S512x1024_S4096x1024_S512x4096_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S4096 : Shape := ⟨1, ![4096]⟩
abbrev S16384x4096 : Shape := ⟨2, ![16384, 4096]⟩
abbrev S1x4096 : Shape := ⟨2, ![1, 4096]⟩
abbrev S16384x1024x4 : Shape := ⟨3, ![16384, 1024, 4]⟩
abbrev S_ : Shape := ⟨0, ![]⟩
abbrev S16384 : Shape := ⟨1, ![16384]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S16384x4096, .f32⟩
  | .hbm, ⟨6, _⟩ => ⟨S16384x4096, .f32⟩
  | .hbm, ⟨7, _⟩ => ⟨S16384x1024x4, .f32⟩
  | .hbm, ⟨8, _⟩ => ⟨S_, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  shapeCasts_S16384x4096_S16384x1024x4 : S16384x4096.ShapeCasts S16384x1024x4
  reducesTo_S16384x1024x4_S16384x1024_d2 : S16384x1024x4.ReducesTo [2] S16384x1024
  h_S_ : 0 < S_.numel
  reducesTo_S16384x1024_S16384_d1 : S16384x1024.ReducesTo [1] S16384
  bcast_S_S16384 : S_.BroadcastsInDim S16384 (![] : Fin 0 → Fin S16384.rank)
  dot_S16384x1024_S4096x1024_S16384x4096_1_1_0_0_n_n_wf : DotDims.WF S16384x1024 S4096x1024 S16384x4096 [1] [1] [0] [0] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf

class Facts : Prop extends Facts₀ where

variable [Facts]
-- ==== Proof.Spec.lean ====
/-
  The function both programs compute, over the extended reals, one output row at a time.

  For a row `xr` of the input (1024 entries), a weight matrix `w` (4096 × 1024) and a bias `b` (4096 entries):
  the affine layer's entry `n` is `∑ k, xr k · w[n, k] + b[n]`; the 4096 entries are pooled in 1024 consecutive
  windows of four, each window's maximum taken from −∞; the 1024 maxima are summed and the sum is halved.
  No law of arithmetic beyond the definitions is used anywhere: the two programs perform these same operations in
  this same order, and differ only in how they tile the rows and lay the windows out.
-/
import Idealize.ShloMosaic.PureOps.Ideal
import Idealize.ShloMosaic.Lib.ValueIdx

noncomputable section

namespace Cert.PoolSum

open Idealize.ShloMosaic Idealize.ShloMosaic.ValueIdx

/-- Feature `4g + j`: member `j` of pooling window `g`. -/
def feat (g : Fin 1024) (j : Fin 4) : Fin 4096 :=
  ⟨g.val * 4 + j.val, by have := g.isLt; have := j.isLt; omega⟩

theorem feat_val (g : Fin 1024) (j : Fin 4) : (feat g j).val = g.val * 4 + j.val := rfl

/-- Entry `n` of the affine layer on the row `xr`: the inner product with row `n` of the weights, plus the bias. -/
def affine (xr : Fin 1024 → EReal) (w : (⟨2, ![4096, 1024]⟩ : Shape).Idx → EReal)
    (b : (⟨1, ![4096]⟩ : Shape).Idx → EReal) (n : Fin 4096) : EReal :=
  (∑ k : Fin 1024, xr k * w (ix2 n k)) + b (ix1 n)

/-- The maximum over pooling window `g`, taken from −∞ (the f32 pattern `0xFF800000`). -/
def pooled (xr : Fin 1024 → EReal) (w : (⟨2, ![4096, 1024]⟩ : Shape).Idx → EReal)
    (b : (⟨1, ![4096]⟩ : Shape).Idx → EReal) (g : Fin 1024) : EReal :=
  (Finset.univ : Finset (Fin 4)).fold max (Ideal.ofBits .f32 0xFF800000#32) (fun j => affine xr w b (feat g j))

/-- The row's result: the sum of the 1024 window maxima, times one half (the f32 pattern `0x3F000000`). -/
def rowOut (xr : Fin 1024 → EReal) (w : (⟨2, ![4096, 1024]⟩ : Shape).Idx → EReal)
    (b : (⟨1, ![4096]⟩ : Shape).Idx → EReal) : EReal :=
  (∑ g : Fin 1024, pooled xr w b g) * Ideal.ofBits .f32 0x3F000000#32

/-- The row's result depends on the row, the weights and the bias only through their entries. -/
theorem rowOut_congr {xr xr' : Fin 1024 → EReal} {w w' : (⟨2, ![4096, 1024]⟩ : Shape).Idx → EReal}
    {b b' : (⟨1, ![4096]⟩ : Shape).Idx → EReal} (hx : ∀ k, xr k = xr' k) (hw : ∀ n k, w (ix2 n k) = w' (ix2 n k))
    (hb : ∀ n, b (ix1 n) = b' (ix1 n)) : rowOut xr w b = rowOut xr' w' b' := by
  unfold rowOut pooled affine
  refine congrArg (· * _) (Finset.sum_congr rfl fun g _ => ?_)
  refine congrArg (fun f => Finset.fold max _ f Finset.univ) (funext fun j => ?_)
  rw [hb]
  exact congrArg (· + _) (Finset.sum_congr rfl fun k _ => by rw [hx, hw])

/-- The whole result array: entry `i` is the result of row `i` of the input. -/
def result (x : (⟨2, ![16384, 1024]⟩ : Shape).Idx → EReal) (w : (⟨2, ![4096, 1024]⟩ : Shape).Idx → EReal)
    (b : (⟨1, ![4096]⟩ : Shape).Idx → EReal) : (⟨1, ![16384]⟩ : Shape).Idx → EReal :=
  fun i => rowOut (fun k => x (ix2 (⟨(i 0).val, (i 0).isLt⟩ : Fin 16384) k)) w b

end Cert.PoolSum

end
-- ==== Proof.KernelRow.lean ====
/-
  The kernel's body at one row of its block, at the ideal values.

  The body loads a 512 × 1024 block `x0` of the input, the whole weights `x1` and bias `x2`, and stores a vector of
  512 results. Entry `p` of that vector depends on row `p` of the block only: it is `PoolSum.rowOut` of that row.
  The steps: the matrix product into a zero accumulator is the plain sum of products over the contraction index; the
  bias, cast to one row and broadcast down the 512 rows, adds `x2[n]` in column `n`; the cast of the 512 × 4096
  array to 512 × 1024 × 4 puts column `4g + j` at `(g, j)`; the reduction of the last axis by maximum from −∞ is the
  fold of `max` over `j`; the reduction of the remaining axis by addition is the sum over `g`; the product with the
  splat of one half is pointwise. Rounding to bf16 before the product is the identity at the ideal values.
-/
import proofs.«166707_j67276367724702_1_alg».proof.Proof.Gen.KernelIdeal.Skeleton
import proofs.«166707_j67276367724702_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Row

open Cert.KernelIdeal Cert.KernelIdeal.Gen Idealize.ShloMosaic Idealize.ShloMosaic.ValueIdx Cert.PoolSum

/-- The sum over the second axis of a 512 × 1024 vector, at row `p`. -/
theorem laneSum (v : FVec Ideal S512x1024 .f32) (p : Fin 512) :
    multiReduction .add [1] S512 v 0x00000000#32 reduces_S512x1024_S512 (.inl rfl) rfl (ix1 p)
      = ∑ g : Fin 1024, v (ix2 p g) := by
  refine (Ideal.multiReduction_add_single v 0x00000000#32 reduces_S512x1024_S512 (.inl rfl) rfl (ix1 p)).trans ?_
  show ∑ g : Fin 1024, v (reduces_S512x1024_S512.lift (ix1 p) g) = _
  refine Finset.sum_congr rfl fun g _ => congrArg v (funext fun a => Fin.ext ?_)
  match a with
  | ⟨0, _⟩ => rfl
  | ⟨1, _⟩ => rfl

/-- The maximum over the last axis of a 512 × 1024 × 4 vector, from −∞, at `(p, g)`. -/
theorem laneMax (v : FVec Ideal S512x1024x4 .f32) (p : Fin 512) (g : Fin 1024) :
    multiReduction .maximumf [2] S512x1024 v 0xFF800000#32 reduces_S512x1024x4_S512x1024 (.inl rfl) rfl (ix2 p g)
      = (Finset.univ : Finset (Fin 4)).fold max (Ideal.ofBits .f32 0xFF800000#32) (fun j => v (ix3 p g j)) := by
  refine (Ideal.multiReduction_maximumf_single v 0xFF800000#32 reduces_S512x1024x4_S512x1024 (.inl rfl) rfl (ix2 p g)).trans ?_
  show (Finset.univ : Finset (Fin 4)).fold max (Ideal.ofBits .f32 0xFF800000#32) (v ∘ reduces_S512x1024x4_S512x1024.lift (ix2 p g)) = _
  refine congrArg (fun f => Finset.fold max (Ideal.ofBits .f32 0xFF800000#32) f Finset.univ) (funext fun j => ?_)
  refine congrArg v (funext fun a => Fin.ext ?_)
  match a with
  | ⟨0, _⟩ => rfl
  | ⟨1, _⟩ => rfl
  | ⟨2, _⟩ => rfl

/-- The cast of a 512 × 4096 vector to 512 × 1024 × 4 reads column `4g + j` at `(g, j)`. -/
theorem windowCast (v : FVec Ideal S512x4096 .f32) (p : Fin 512) (g : Fin 1024) (j : Fin 4) :
    shapeCast S512x1024x4 v shapeCasts_S512x4096_S512x1024x4 (ix3 p g j) = v (ix2 p (feat g j)) :=
  shapeCast_apply v shapeCasts_S512x4096_S512x1024x4 (ix3 p g j) (ix2 p (feat g j)) (by
    rw [Shape.rowMajor_val_two, Shape.rowMajor_val_three]
    show p.val * 4096 + (g.val * 4 + j.val) = (p.val * 1024 + g.val) * 4 + j.val
    omega)

/-- The bias, cast to one row and broadcast down the rows, is `x2[n]` in column `n` of every row. -/
theorem biasRow (x2 : FVec Ideal S4096 .f32) (p : Fin 512) (n : Fin 4096) :
    broadcastTo S512x4096 (shapeCast S1x4096 x2 shapeCasts_S4096_S1x4096) broadcasts_S1x4096_S512x4096 (ix2 p n) = x2 (ix1 n) :=
  (broadcastTo_1b_ab_apply (shapeCast S1x4096 x2 shapeCasts_S4096_S1x4096) broadcasts_S1x4096_S512x4096 p n).trans
    (shapeCast_a_1a_apply x2 shapeCasts_S4096_S1x4096 0 n)

theorem lhs_0 (i : S512x4096.Idx) (q : dot_S512x1024_S4096x1024_S512x4096_1_1_0_0_n_n.contr.Idx) : (dot_S512x1024_S4096x1024_S512x4096_1_1_0_0_n_n.lhsIdx i q 0).val = (i 0).val := by
  unfold DotDims.lhsIdx
  rw [dif_neg (show ¬(0 : Fin S512x1024.rank) ∈ dot_S512x1024_S4096x1024_S512x4096_1_1_0_0_n_n.lhsBatch by decide), dif_pos (show (0 : Fin S512x1024.rank) ∈ dot_S512x1024_S4096x1024_S512x4096_1_1_0_0_n_n.lhsNonContracting by decide)]
  rfl
theorem lhs_1 (i : S512x4096.Idx) (q : dot_S512x1024_S4096x1024_S512x4096_1_1_0_0_n_n.contr.Idx) : (dot_S512x1024_S4096x1024_S512x4096_1_1_0_0_n_n.lhsIdx i q 1).val = (q ⟨0, by decide⟩).val :=
  dot_S512x1024_S4096x1024_S512x4096_1_1_0_0_n_n.lhsIdx_val_of_single rfl i q
theorem rhs_0 (i : S512x4096.Idx) (q : dot_S512x1024_S4096x1024_S512x4096_1_1_0_0_n_n.contr.Idx) : (dot_S512x1024_S4096x1024_S512x4096_1_1_0_0_n_n.rhsIdx i q 0).val = (i 1).val := by
  unfold DotDims.rhsIdx
  rw [dif_neg (show ¬(0 : Fin S4096x1024.rank) ∈ dot_S512x1024_S4096x1024_S512x4096_1_1_0_0_n_n.rhsBatch by decide), dif_pos (show (0 : Fin S4096x1024.rank) ∈ dot_S512x1024_S4096x1024_S512x4096_1_1_0_0_n_n.rhsNonContracting by decide)]
  rfl
theorem rhs_1 (i : S512x4096.Idx) (q : dot_S512x1024_S4096x1024_S512x4096_1_1_0_0_n_n.contr.Idx) : (dot_S512x1024_S4096x1024_S512x4096_1_1_0_0_n_n.rhsIdx i q 1).val = (q ⟨0, by decide⟩).val :=
  dot_S512x1024_S4096x1024_S512x4096_1_1_0_0_n_n.rhsIdx_val_of_single rfl i q

/-- The matrix product into a zero accumulator, at `(p, n)`: row `p` of the left operand against row `n` of the
    right one (both contract their second axis). -/
theorem productRow (l : FVec Ideal S512x1024 .bf16) (r : FVec Ideal S4096x1024 .bf16) (p : Fin 512) (n : Fin 4096) :
    matmul dot_S512x1024_S4096x1024_S512x4096_1_1_0_0_n_n none l r (constant S512x4096 .f32 0x00000000#32) (ix2 p n)
      = ∑ k : Fin 1024, l (ix2 p k) * r (ix2 n k) := by
  refine (Ideal.matmul_constant_zero_apply dot_S512x1024_S4096x1024_S512x4096_1_1_0_0_n_n none l r (ix2 p n)).trans ?_
  rw [← Equiv.sum_comp (contrEquiv1 dot_S512x1024_S4096x1024_S512x4096_1_1_0_0_n_n 1024 rfl rfl).symm]
  refine Finset.sum_congr rfl fun k _ => ?_
  have hk := contrEquiv1_symm_val dot_S512x1024_S4096x1024_S512x4096_1_1_0_0_n_n 1024 rfl rfl k
  have el : dot_S512x1024_S4096x1024_S512x4096_1_1_0_0_n_n.lhsIdx (ix2 p n) ((contrEquiv1 dot_S512x1024_S4096x1024_S512x4096_1_1_0_0_n_n 1024 rfl rfl).symm k) = ix2 p k := funext fun a => Fin.ext (by
    match a with
    | ⟨0, _⟩ => exact lhs_0 _ _
    | ⟨1, _⟩ => exact (lhs_1 _ _).trans hk)
  have er : dot_S512x1024_S4096x1024_S512x4096_1_1_0_0_n_n.rhsIdx (ix2 p n) ((contrEquiv1 dot_S512x1024_S4096x1024_S512x4096_1_1_0_0_n_n 1024 rfl rfl).symm k) = ix2 n k := funext fun a => Fin.ext (by
    match a with
    | ⟨0, _⟩ => exact rhs_0 _ _
    | ⟨1, _⟩ => exact (rhs_1 _ _).trans hk)
  rw [el, er]

/-- ENTRY `p` OF WHAT THE BODY STORES is the row result of row `p` of the loaded input block. -/
theorem payload_row (x0 : Vec Ideal S512x1024 .f32) (x1 : Vec Ideal S4096x1024 .f32) (x2 : Vec Ideal S4096 .f32) (p : Fin 512) :
    k0_pay1 (F := Ideal) x0 x1 x2 (ix1 p) = rowOut (fun k => x0 (ix2 p k)) x1 x2 := by
  unfold k0_pay1 rowOut
  dsimp only
  refine (mulf_apply _ _ (ix1 p)).trans ?_
  refine congrArg (· * Ideal.ofBits .f32 0x3F000000#32) ?_
  refine (laneSum _ p).trans (Finset.sum_congr rfl fun g _ => ?_)
  refine (laneMax _ p g).trans ?_
  unfold pooled
  refine congrArg (fun f => Finset.fold max (Ideal.ofBits .f32 0xFF800000#32) f Finset.univ) (funext fun j => ?_)
  refine (windowCast _ p g j).trans ?_
  refine (addf_apply _ _ (ix2 p (feat g j))).trans ?_
  unfold affine
  rw [biasRow x2 p (feat g j)]
  refine congrArg (· + x2 (ix1 (feat g j))) ?_
  exact productRow _ _ p (feat g j)

end Cert.KernelIdeal.Row

end
-- ==== Proof.KernelArray.lean ====
/-
  From the kernel's blocks to its whole result array, at the ideal values.

  The grid has 32 points. At point `t` the pipeline hands the body rows `512 t … 512 t + 511` of the input (all 1024
  columns), the whole weights and the whole bias, and writes the body's 512 results back to entries
  `512 t … 512 t + 511` of the result array. Entry `p` of what the body stores is the row result of row `p` of its
  input block (`Row.payload_row`), which is row `512 t + p` of the input: so point `t` writes block `t` of
  `PoolSum.result` of the argument arrays. Every entry `r` of the result array lies in the block of point `r / 512`,
  so after the run the array is `PoolSum.result` of the arguments, and the arguments are as launched.
-/
import proofs.«166707_j67276367724702_1_alg».proof.Proof.Gen.KernelIdeal.Value
import proofs.«166707_j67276367724702_1_alg».proof.Proof.KernelRow
import proofs.«166707_j67276367724702_1_alg».proof.Proof.Spec
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx Cert.PoolSum
open Idealize.ShloMosaic.Pipeline (Dat)

variable (m : (ℓ : Loc nD τ sig) → Buf (Elt Ideal) ℓ) (ρ : Dev nD → PrngReg)

theorem zero1 : (![0] : Fin 1 → Nat) = fun _ => 0 := funext fun a => by fin_cases a <;> rfl
theorem zero2 : (![0, 0] : Fin 2 → Nat) = fun _ => 0 := funext fun a => by fin_cases a <;> rfl

/-- The printed index maps, decided over the 32 grid points: the input's block row and the result's block are the
    point's number; the input's block column, and the weights' and the bias's blocks, are block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = t.val :=
  (by decide +kernel : ∀ t : Fin grid0.N, _)

/-- WHAT POINT `t` WRITES BACK is block `t` of the row results of the argument arrays as the region finds them. -/
theorem flushed_eq (c : Dev nD) (t : Fin cfg0.N) :
    (dats m 0 c).flushed 3 t
      = ((cfg0.win 3).blk t).view.read (Elt Ideal) (result (V m c main_arg0) (V m c main_arg1) (V m c main_arg2)) := by
  rw [Cert.KernelIdeal.Value.flushed3]
  unfold out0_3
  rw [View.canon_unit_zero zero1]
  simp only [View.ld_unit_zero (S := S512x1024) zero2, View.ld_unit_zero (S := S4096x1024) zero2, View.ld_unit_zero (S := S4096) zero1]
  obtain ⟨e00, e01, e10, e11, e2, e3⟩ := idx_facts t
  funext y
  obtain ⟨p, rfl⟩ : ∃ p : Fin 512, y = ix1 p := ⟨y 0, eq_ix1 y⟩
  show k0_pay1 (F := Ideal) (iblk m c 0 t) (iblk m c 1 t) (iblk m c 2 t) (ix1 p)
    = result (V m c main_arg0) (V m c main_arg1) (V m c main_arg2) (((cfg0.win 3).blk t).view.emb (ix1 p))
  refine (Row.payload_row (iblk m c 0 t) (iblk m c 1 t) (iblk m c 2 t) p).trans ?_
  unfold result
  refine rowOut_congr (fun k => ?_) (fun n k => ?_) (fun n => ?_)
  · show V m c main_arg0 (((cfg0.win 0).blk t).view.emb (ix2 p k)) = V m c main_arg0 _
    refine congrArg (V m c main_arg0) (funext fun a => Fin.ext ?_)
    match a with
    | ⟨0, _⟩ =>
      show win0_0.index t (0 : Fin 2) * 512 + 1 * p.val = win0_3.index t (0 : Fin 1) * 512 + 1 * p.val
      rw [e00, e3]
    | ⟨1, _⟩ =>
      show win0_0.index t (1 : Fin 2) * 1024 + 1 * k.val = k.val
      rw [e01]; omega
  · show V m c main_arg1 (((cfg0.win 1).blk t).view.emb (ix2 n k)) = V m c main_arg1 (ix2 n k)
    refine congrArg (V m c main_arg1) (funext fun a => Fin.ext ?_)
    match a with
    | ⟨0, _⟩ =>
      show win0_1.index t (0 : Fin 2) * 4096 + 1 * n.val = n.val
      rw [e10]; omega
    | ⟨1, _⟩ =>
      show win0_1.index t (1 : Fin 2) * 1024 + 1 * k.val = k.val
      rw [e11]; omega
  · show V m c main_arg2 (((cfg0.win 2).blk t).view.emb (ix1 n)) = V m c main_arg2 (ix1 n)
    refine congrArg (V m c main_arg2) (funext fun a => Fin.ext ?_)
    match a with
    | ⟨0, _⟩ =>
      show win0_2.index t (0 : Fin 1) * 4096 + 1 * n.val = n.val
      rw [e2]; omega

/-- An entry of the result array is in point `t`'s block iff it lies in the block's range of 512 entries. -/
theorem mem_blk (t : Fin cfg0.N) (i : S16384.Idx) :
    i ∈ ((cfg0.win 3).blk t).view.set
      ↔ ∀ a : Fin 1, win0_3.index t a * S512.size a ≤ (i a).val ∧ (i a).val < win0_3.index t a * S512.size a + S512.size a := by
  show i ∈ ((View.whole main_v0).slice (win0_3.rect t)).set ↔ _
  rw [View.set_slice_whole, Rect.mem_set_unit]
  exact Iff.rfl

/-- Every entry `r` of the result array is in the block of point `r / 512`, which writes back. -/
theorem cover (i : S16384.Idx) : ∃ t : Fin cfg0.N, (cfg0.win 3).flush t = true ∧ i ∈ ((cfg0.win 3).blk t).view.set := by
  have hi : (i 0).val < 16384 := (i 0).isLt
  have hN : cfg0.N = 32 := N_0
  have ht : (i 0).val / 512 < cfg0.N := by rw [hN]; omega
  refine ⟨⟨(i 0).val / 512, ht⟩, flush0_3 _, ?_⟩
  rw [mem_blk]
  obtain ⟨-, -, -, -, -, e3⟩ := idx_facts ⟨(i 0).val / 512, ht⟩
  intro a
  match a with
  | ⟨0, _⟩ =>
    show win0_3.index ⟨(i 0).val / 512, ht⟩ (0 : Fin 1) * 512 ≤ (i 0).val
      ∧ (i 0).val < win0_3.index ⟨(i 0).val / 512, ht⟩ (0 : Fin 1) * 512 + 512
    rw [e3]
    show (i 0).val / 512 * 512 ≤ (i 0).val ∧ (i 0).val < (i 0).val / 512 * 512 + 512
    omega

/-- THE RESULT ARRAY after the run: the row results of the argument arrays. -/
theorem final (c : Dev nD) :
    (dats m 0 c).arrAt 3 cfg0.N
      = result (m ((c : Thread nD τ).loc main_arg0)) (m ((c : Thread nD τ).loc main_arg1)) (m ((c : Thread nD τ).loc main_arg2)) :=
  (dats m 0 c).arrAt_eq_of_cover 3 (result (V m c main_arg0) (V m c main_arg1) (V m c main_arg2))
    (fun t _ => flushed_eq m c t) cover

/-- The run, read: every weakly fair execution ends with the result array at the row results of the arguments, and the
    arguments as launched. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Whole

end
-- ==== Proof.RefRow.lean ====
/-
  The reference program's result at one row, at the ideal values.

  The reference forms the whole 16384 × 4096 affine layer (a `dot_general` contracting both operands' second axis, plus
  the bias broadcast along the rows), reshapes it to 16384 × 1024 × 4, reduces the last axis by maximum from −∞, reduces
  the remaining feature axis by addition from zero, and multiplies by one half. Read at row `r`:
  the reshape puts column `4g + j` of row `r` at `(r, g, j)` (the row-major position `(r·1024 + g)·4 + j` is
  `r·4096 + (4g + j)`); the maximum over one axis is the fold of `max` over that axis's four coordinates, in any
  order; the sum from a zero initial value is the plain sum. So entry `r` is `PoolSum.rowOut` of row `r` of the input.
-/
import proofs.«166707_j67276367724702_1_alg».proof.Proof.Gen.ReferenceIdeal.Read
import proofs.«166707_j67276367724702_1_alg».proof.Proof.Spec
import Idealize.ShloMosaic.PureOps.Ideal.Laws
import Idealize.ShloMosaic.PureOps.Reduce
import Idealize.ShloMosaic.Lib.ValueIdx

noncomputable section

namespace Cert.ReferenceIdeal.Row

open Cert.ReferenceIdeal Cert.ReferenceIdeal.Gen Cert.ReferenceIdeal.Read Idealize.ShloMosaic Idealize.ShloMosaic.ValueIdx Cert.PoolSum

/-- The reshaped affine layer at `(r, g, j)` is entry `4g + j` of the affine layer on row `r`. -/
theorem windowEntry (x0 : (⟨S16384x1024, .f32⟩ : BufTy).Contents (Elt Ideal)) (x1 : (⟨S4096x1024, .f32⟩ : BufTy).Contents (Elt Ideal))
    (x2 : (⟨S4096, .f32⟩ : BufTy).Contents (Elt Ideal)) (r : Fin 16384) (g : Fin 1024) (j : Fin 4) :
    val_main_v4 (F := Ideal) x0 x1 x2 (ix3 r g j) = affine (fun k => x0 (ix2 r k)) x1 x2 (feat g j) := by
  rw [val_main_v4_apply, val_main_v3_apply, val_main_v0_apply, val_main_v2_apply, val_main_v1_apply]
  unfold affine
  have hr := r.isLt
  have hg := g.isLt
  have hj := j.isLt
  have hrow : ((r.val * 1024 + g.val) * 4 + j.val) / 4096 = r.val := by omega
  have hcol : ((r.val * 1024 + g.val) * 4 + j.val) % 4096 = g.val * 4 + j.val := by omega
  have el : ∀ k, lidx_main_v0 (idx_main_v4 (ix3 r g j)) k = ix2 r k := fun k => funext fun a => Fin.ext (by
    match a with
    | ⟨0, _⟩ => exact hrow
    | ⟨1, _⟩ => rfl)
  have er : ∀ k, ridx_main_v0 (idx_main_v4 (ix3 r g j)) k = ix2 (feat g j) k := fun k => funext fun a => Fin.ext (by
    match a with
    | ⟨0, _⟩ => exact hcol
    | ⟨1, _⟩ => rfl)
  have eb : idx_main_v1 (idx_main_v2 (idx_main_v4 (ix3 r g j))) = ix1 (feat g j) := funext fun a => Fin.ext (by
    match a with
    | ⟨0, _⟩ => exact hcol)
  rw [eb]
  exact congrArg (· + x2 (ix1 (feat g j))) (Finset.sum_congr rfl fun k _ => by rw [el, er])

/-- The reduced shape relation, as the witness that names the inserted coordinate. -/
theorem windowAxis : S16384x1024x4.Reduces [2] S16384x1024 := by decide

/-- The maximum over the last axis, at `(r, g)`: the maximum of pooling window `g` on row `r`. -/
theorem windowMax (x0 : (⟨S16384x1024, .f32⟩ : BufTy).Contents (Elt Ideal)) (x1 : (⟨S4096x1024, .f32⟩ : BufTy).Contents (Elt Ideal))
    (x2 : (⟨S4096, .f32⟩ : BufTy).Contents (Elt Ideal)) (r : Fin 16384) (g : Fin 1024) :
    val_main_v5 (F := Ideal) x0 x1 x2 (ix2 r g) = pooled (fun k => x0 (ix2 r k)) x1 x2 g := by
  unfold val_main_v5
  refine (Host.reduce_eq_fold_single (α := EReal) (s := S16384x1024x4) (t := S16384x1024) (a := 2) (u := S_)
    (FloatOps.maximumf (F := Ideal) (φ := .f32)) (val_main_v4 (F := Ideal) x0 x1 x2) (val_main_cst (F := Ideal))
    reducesTo_S16384x1024x4_S16384x1024_d2 windowAxis h_S_ (ix2 r g)).trans ?_
  unfold pooled
  show (Finset.univ : Finset (Fin 4)).fold max (Ideal.ofBits .f32 0xFF800000#32)
    (val_main_v4 (F := Ideal) x0 x1 x2 ∘ windowAxis.lift (ix2 r g)) = _
  refine congrArg (fun f => Finset.fold max (Ideal.ofBits .f32 0xFF800000#32) f Finset.univ) (funext fun j => ?_)
  have e : windowAxis.lift (ix2 r g) j = ix3 r g j := funext fun a => Fin.ext (by
    match a with
    | ⟨0, _⟩ => rfl
    | ⟨1, _⟩ => rfl
    | ⟨2, _⟩ => rfl)
  show val_main_v4 (F := Ideal) x0 x1 x2 (windowAxis.lift (ix2 r g) j) = _
  rw [e]
  exact windowEntry x0 x1 x2 r g j

/-- THE REFERENCE'S RESULT, as the last stage of its run, is the row result of each row of the input. -/
theorem stage_eq (x0 : (⟨S16384x1024, .f32⟩ : BufTy).Contents (Elt Ideal)) (x1 : (⟨S4096x1024, .f32⟩ : BufTy).Contents (Elt Ideal))
    (x2 : (⟨S4096, .f32⟩ : BufTy).Contents (Elt Ideal)) :
    val_main_v8 (F := Ideal) x0 x1 x2 = result x0 x1 x2 := by
  funext i
  obtain ⟨r, rfl⟩ : ∃ r : Fin 16384, i = ix1 r := ⟨i 0, eq_ix1 i⟩
  rw [val_main_v8_apply, val_main_v6_apply, val_main_v7_apply, val_main_cst_1_apply, val_main_cst_0_apply]
  unfold result rowOut
  show (Ideal.ofBits .f32 0x00000000#32 + ∑ g : Fin 1024, val_main_v5 (F := Ideal) x0 x1 x2 (idx_main_v6 (ix1 r) g))
    * Ideal.ofBits .f32 0x3F000000#32 = _
  rw [Ideal.ofBits_zero_f32, zero_add]
  refine congrArg (· * Ideal.ofBits .f32 0x3F000000#32) (Finset.sum_congr rfl fun g _ => ?_)
  have e : idx_main_v6 (ix1 r) g = ix2 r g := funext fun a => Fin.ext (by
    match a with
    | ⟨0, _⟩ => rfl
    | ⟨1, _⟩ => rfl)
  rw [e]
  exact windowMax x0 x1 x2 r g

end Cert.ReferenceIdeal.Row

end
-- ==== Proof.lean ====
/-
  A fused kernel for `0.5 · ∑_g max_{j<4} (x · Wᵀ + b)[·, 4g + j]` against the same expression in plain jnp.

  Inputs: `x` (16384 × 1024), weights `W` (4096 × 1024), bias `b` (4096). For each row `r` of `x` both programs form the
  4096 affine outputs `y[n] = ∑ k, x[r, k] · W[n, k] + b[n]`, take the maximum of each of the 1024 consecutive windows
  of four (from −∞), add the 1024 maxima, and halve the sum. The kernel does this for 512 rows per grid point,
  32 points, with the weights and bias resident; the reference does it for the whole array at once. Over the extended
  reals the two are the SAME operations in the SAME order on each row — the kernel's rounding of the matmul operands to
  bf16 is the identity there, a matrix product into a zero accumulator is the plain sum of products, and a maximum over
  four entries does not depend on the order they are taken in — so no algebraic law (and no finiteness of the inputs)
  is needed: only the bookkeeping that says which entries each side reads.

  Modules: `Proof/Spec.lean` states the row result `PoolSum.rowOut` and the result array `PoolSum.result`;
  `Proof/KernelRow.lean` reads the kernel body's stored vector at a row; `Proof/KernelArray.lean` assembles the 32
  written blocks into the result array and restates the kernel's run; `Proof/RefRow.lean` reads the reference's last
  stage at a row. The frames of the two kernel programs, the kernel's run block by block, and the reference's run and
  its stage-by-stage reading are imported generated modules. The idealization rewrote nothing, so `preserves` is `True`.
-/
import proofs.«166707_j67276367724702_1_alg».proof.Defs
import proofs.«166707_j67276367724702_1_alg».proof.Proof.Gen.Kernel
import proofs.«166707_j67276367724702_1_alg».proof.Proof.Gen.Kernel.Frame
import proofs.«166707_j67276367724702_1_alg».proof.Proof.Gen.KernelIdeal
import proofs.«166707_j67276367724702_1_alg».proof.Proof.Gen.KernelIdeal.Frame
import proofs.«166707_j67276367724702_1_alg».proof.Proof.Gen.KernelIdeal.Value
import proofs.«166707_j67276367724702_1_alg».proof.Proof.Gen.ReferenceIdeal
import proofs.«166707_j67276367724702_1_alg».proof.Proof.Gen.ReferenceIdeal.Run
import proofs.«166707_j67276367724702_1_alg».proof.Proof.Gen.ReferenceIdeal.Read
import proofs.«166707_j67276367724702_1_alg».proof.Proof.Gen.Pre_finite_inputs
import proofs.«166707_j67276367724702_1_alg».proof.Proof.Spec
import proofs.«166707_j67276367724702_1_alg».proof.Proof.KernelArray
import proofs.«166707_j67276367724702_1_alg».proof.Proof.RefRow
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments unchanged: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments both programs end with the result array at the row results of
    the arguments: the kernel by its 32 blocks, the reference by its last stage read row by row. -/
theorem algebraic : Cert.algebraic_KernelIdeal_ReferenceIdeal := by
  intro m ρ m' ρ' _ hagree
  refine ⟨fun c => Cert.PoolSum.result
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.ReferenceIdeal.Row.stage_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
